-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg6 : FVec F S20 .f32) (main_v13 : IVec S_ 1) (main_v16 : IVec S64x20 1) : IVec S_ 1 :=
  let main_c_5 : IVec S_ 1 := constantI S_ 1 1#1
  let main_v17 : IVec S_ 1 := (fun x v => Host.reduce IntOp.andi x v reducesTo_S64x20_S_d0_1 h_S_) main_v16 main_c_5
  let main_v18 : IVec S_ 1 := andi main_v13 main_v17
  let main_v19 : FVec F S20 .f32 := Host.absf main_arg6
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S100000x64 .f32) (main_arg1 : IVec S1000000 32) (main_arg2 : IVec S1000000 32) (main_arg3 : FVec F S64x64 .f32) (main_arg4 : FVec F S64 .f32) (main_arg5 : FVec F S64x20 .f32) (main_arg6 : FVec F S20 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x20 .f32 := Host.absf main_arg5
  let main_cst_4 : FVec F S_ .f32 := constant S_ .f32 0x7F800000#32
  let main_v15 : FVec F S64x20 .f32 := broadcastInDim S64x20 ![] bcast_S_S64x20 main_cst_4
  let main_v16 : IVec S64x20 1 := cmpf .olt main_v14 main_v15
  fn_part1 (F := F) main_arg6 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S5000x64 : Shape := ⟨2, ![5000, 64]⟩
abbrev S1x20 : Shape := ⟨2, ![1, 20]⟩
abbrev S100000x20 : Shape := ⟨2, ![100000, 20]⟩
abbrev S5000x20 : Shape := ⟨2, ![5000, 20]⟩

abbrev nBuf : Space → Nat
  | .hbm => 37
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x20, .f32⟩
  | .hbm, ⟨6, _⟩ => ⟨S20, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | .hbm, ⟨20, _⟩ => ⟨S1x64, .f32⟩
  | .hbm, ⟨21, _⟩ => ⟨S100000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S1x20, .f32⟩
  | .hbm, ⟨36, _⟩ => ⟨S100000x20, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x20, .f32⟩
  | .local _ .vmem, ⟨9, _⟩ => ⟨S1x20, .f32⟩
  | .local _ .vmem, ⟨10, _⟩ => ⟨S5000x20, .f32⟩
  | .local _ .vmem, ⟨11, _⟩ => ⟨S5000x20, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x20 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S20_S1x20 : S20.ShapeCasts S1x20
  inb_S64x20_S64x20_0_0 : ∀ a, (![0, 0] : Fin 2 → Nat) a + S64x20.size a ≤ S64x20.size a
  h_S64x20 : 0 < S64x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x20_S5000x20_1_0_0_1_n_n_wf : DotDims.WF S5000x64 S64x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x20.size a ≤ S64x20.size a
  hwx1_1 : ∀ i : grid1.Coords, EltTy.bits .f32 = 32 ∨ (Rect.block (s := S64x20) S64x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x20.size a ≤ S100000x20.size a
  hwx1_3 : ∀ i : grid1.Coords, EltTy.bits .f32 = 32 ∨ (Rect.block (s := S100000x20) S5000x20.size (cc1_transform_3 i) (hinb1_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x20_S5000x20_1_0_0_1_n_n : DotDims S5000x64 S64x20 S5000x20 where
  lhsContracting := [1]
  rhsContracting := [0]
  lhsNonContracting := [0]
  rhsNonContracting := [1]
  lhsBatch := []
  rhsBatch := []
  wf := dot_S5000x64_S64x20_S5000x20_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x20.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x20 : Shape := ⟨2, ![100000, 20]⟩
abbrev S1x20 : Shape := ⟨2, ![1, 20]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64x20, .f32⟩
  | .hbm, ⟨6, _⟩ => ⟨S20, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S100000x20, .f32⟩
  | .hbm, ⟨41, _⟩ => ⟨S1x20, .f32⟩
  | .hbm, ⟨42, _⟩ => ⟨S100000x20, .f32⟩
  | .hbm, ⟨43, _⟩ => ⟨S100000x20, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x20_S100000x20_1_0_0_1_n_n_wf : DotDims.WF S100000x64 S64x20 S100000x20 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x20_S100000x20_1_0_0_1_n_n : DotDims S100000x64 S64x20 S100000x20 where
  lhsContracting := [1]
  rhsContracting := [0]
  lhsNonContracting := [0]
  rhsNonContracting := [1]
  lhsBatch := []
  rhsBatch := []
  wf := dot_S100000x64_S64x20_S100000x20_1_0_0_1_n_n_wf

class Facts : Prop extends Facts₀ where

variable [Facts]
-- ==== Proof.KernelRun.lean ====
/-
  The idealized kernel program's run with its RESULT named: every weakly fair execution of @main terminates, and in
  every final state the result buffer holds the contents the last boundary of @main's four segments (a stretch of host
  operations, the first layer's region, a second stretch, the second layer's region) assigns to it, while the seven
  argument arrays are as launched. The segments, their thread states and the boundary contents are the generated
  frame's; only what is read off the last boundary differs: the result buffer beside the arguments.
-/
import proofs.«104964_j3504693313862_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments, read at the last boundary: the result buffer at that boundary's contents,
    each argument at its launch contents. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Gcn.KernelRun

end
-- ==== Proof.Dense.lean ====
/-
  A dense layer on extended reals, index by index: for a node matrix `a` of `n` rows and `k` features, a weight
  matrix `w` (`k` by `c`) and a bias row `b` (one row of `c` entries), entry `(r, j)` of the layer's result is
  `(∑ q, a (r, q) · w (q, j)) + b (0, j)`; the rectified layer takes the maximum of that and the zero word's value.
  Both are plain functions of their operands, so a row block of the result depends only on the same rows of `a`.
-/
import Idealize.ShloMosaic.PureOps.Ideal
import Idealize.ShloMosaic.Lib.ValueIdx

noncomputable section

namespace Cert.Gcn

open Idealize.ShloMosaic Idealize.ShloMosaic.ValueIdx

/-- Entry `(r, j)` of `a · w + b`: the sum over the feature axis of row `r` of `a` against column `j` of `w`, plus
    the bias row's entry `j`. -/
def dense {n k c : Nat} (a : (⟨2, ![n, k]⟩ : Shape).Idx → EReal) (w : (⟨2, ![k, c]⟩ : Shape).Idx → EReal)
    (b : (⟨2, ![1, c]⟩ : Shape).Idx → EReal) : (⟨2, ![n, c]⟩ : Shape).Idx → EReal :=
  fun i => (∑ q : Fin k, a (ix2 (i 0) q) * w (ix2 q (i 1))) + b (ix2 (0 : Fin 1) (i 1))

/-- The rectified layer: `max (a · w + b) 0`, the zero kept as the value of the all-zero f32 word. -/
def denseRelu {n k c : Nat} (a : (⟨2, ![n, k]⟩ : Shape).Idx → EReal) (w : (⟨2, ![k, c]⟩ : Shape).Idx → EReal)
    (b : (⟨2, ![1, c]⟩ : Shape).Idx → EReal) : (⟨2, ![n, c]⟩ : Shape).Idx → EReal :=
  fun i => max (dense a w b i) (Ideal.ofBits .f32 0x00000000#32)

theorem dense_apply {n k c : Nat} (a : (⟨2, ![n, k]⟩ : Shape).Idx → EReal) (w : (⟨2, ![k, c]⟩ : Shape).Idx → EReal)
    (b : (⟨2, ![1, c]⟩ : Shape).Idx → EReal) (r : Fin n) (j : Fin c) :
    dense a w b (ix2 r j) = (∑ q : Fin k, a (ix2 r q) * w (ix2 q j)) + b (ix2 (0 : Fin 1) j) := rfl

theorem denseRelu_apply {n k c : Nat} (a : (⟨2, ![n, k]⟩ : Shape).Idx → EReal) (w : (⟨2, ![k, c]⟩ : Shape).Idx → EReal)
    (b : (⟨2, ![1, c]⟩ : Shape).Idx → EReal) (r : Fin n) (j : Fin c) :
    denseRelu a w b (ix2 r j)
      = max ((∑ q : Fin k, a (ix2 r q) * w (ix2 q j)) + b (ix2 (0 : Fin 1) j)) (Ideal.ofBits .f32 0x00000000#32) := rfl

end Cert.Gcn

end
-- ==== Proof.Payload.lean ====
/-
  What each kernel body stores, as a function of the three blocks it loads, at the ideal values: the first body's
  stored vector is the rectified dense layer of its blocks, the second's the plain dense layer. A change of float
  format is the identity on extended reals, the matrix product into a zero accumulator is the sum over the feature
  axis, and the bias row is broadcast down the rows.
-/
import proofs.«104964_j3504693313862_1_alg».proof.Proof.Gen.KernelIdeal.Skeleton
import proofs.«104964_j3504693313862_1_alg».proof.Proof.Dense
import Idealize.ShloMosaic.Lib.ValueIdx
import Idealize.ShloMosaic.Lib.ValueLayout
import Idealize.ShloMosaic.Lib.Pipeline.Value
import Idealize.ShloMosaic.PureOps.Ideal.Laws

noncomputable section

namespace Cert.Gcn

open Cert.KernelIdeal Cert.KernelIdeal.Gen Idealize.ShloMosaic Idealize.ShloMosaic.ValueIdx

/-! ## Which operand entries a product entry reads: the output's row, the contracted position, the output's column -/

theorem lhs0_0 (i : S5000x64.Idx) (s : dot_S5000x64_S64x64_S5000x64_1_0_0_1_n_n.contr.Idx) : (dot_S5000x64_S64x64_S5000x64_1_0_0_1_n_n.lhsIdx i s 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs0_1 (i : S5000x64.Idx) (s : dot_S5000x64_S64x64_S5000x64_1_0_0_1_n_n.contr.Idx) : (dot_S5000x64_S64x64_S5000x64_1_0_0_1_n_n.lhsIdx i s 1).val = (s ⟨0, by decide⟩).val :=
  dot_S5000x64_S64x64_S5000x64_1_0_0_1_n_n.lhsIdx_val_of_single rfl i s
theorem rhs0_0 (i : S5000x64.Idx) (s : dot_S5000x64_S64x64_S5000x64_1_0_0_1_n_n.contr.Idx) : (dot_S5000x64_S64x64_S5000x64_1_0_0_1_n_n.rhsIdx i s 0).val = (s ⟨0, by decide⟩).val :=
  dot_S5000x64_S64x64_S5000x64_1_0_0_1_n_n.rhsIdx_val_of_single rfl i s
theorem rhs0_1 (i : S5000x64.Idx) (s : dot_S5000x64_S64x64_S5000x64_1_0_0_1_n_n.contr.Idx) : (dot_S5000x64_S64x64_S5000x64_1_0_0_1_n_n.rhsIdx i s 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's matrix product at entry `(p, q)`: row `p` of the node block against column `q` of the weights. -/
theorem matmul0_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs0_0 _ _
      | ⟨1, _⟩ => exact (lhs0_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (rhs0_0 _ _).trans hk
      | ⟨1, _⟩ => exact rhs0_1 _ _)
  rw [el, er]

theorem lhs1_0 (i : S5000x20.Idx) (s : dot_S5000x64_S64x20_S5000x20_1_0_0_1_n_n.contr.Idx) : (dot_S5000x64_S64x20_S5000x20_1_0_0_1_n_n.lhsIdx i s 0).val = (i 0).val := by
  unfold DotDims.lhsIdx
  rw [dif_neg (show ¬(0 : Fin S5000x64.rank) ∈ dot_S5000x64_S64x20_S5000x20_1_0_0_1_n_n.lhsBatch by decide), dif_pos (show (0 : Fin S5000x64.rank) ∈ dot_S5000x64_S64x20_S5000x20_1_0_0_1_n_n.lhsNonContracting by decide)]
  rfl
theorem lhs1_1 (i : S5000x20.Idx) (s : dot_S5000x64_S64x20_S5000x20_1_0_0_1_n_n.contr.Idx) : (dot_S5000x64_S64x20_S5000x20_1_0_0_1_n_n.lhsIdx i s 1).val = (s ⟨0, by decide⟩).val :=
  dot_S5000x64_S64x20_S5000x20_1_0_0_1_n_n.lhsIdx_val_of_single rfl i s
theorem rhs1_0 (i : S5000x20.Idx) (s : dot_S5000x64_S64x20_S5000x20_1_0_0_1_n_n.contr.Idx) : (dot_S5000x64_S64x20_S5000x20_1_0_0_1_n_n.rhsIdx i s 0).val = (s ⟨0, by decide⟩).val :=
  dot_S5000x64_S64x20_S5000x20_1_0_0_1_n_n.rhsIdx_val_of_single rfl i s
theorem rhs1_1 (i : S5000x20.Idx) (s : dot_S5000x64_S64x20_S5000x20_1_0_0_1_n_n.contr.Idx) : (dot_S5000x64_S64x20_S5000x20_1_0_0_1_n_n.rhsIdx i s 1).val = (i 1).val := by
  unfold DotDims.rhsIdx
  rw [dif_neg (show ¬(1 : Fin S64x20.rank) ∈ dot_S5000x64_S64x20_S5000x20_1_0_0_1_n_n.rhsBatch by decide), dif_pos (show (1 : Fin S64x20.rank) ∈ dot_S5000x64_S64x20_S5000x20_1_0_0_1_n_n.rhsNonContracting by decide)]
  rfl

/-- The body's matrix product at entry `(p, q)`: row `p` of the node block against column `q` of the weights. -/
theorem matmul1_apply (l : FVec Ideal S5000x64 .bf16) (r : FVec Ideal S64x20 .bf16) (p : Fin 5000) (q : Fin 20) :
    matmul dot_S5000x64_S64x20_S5000x20_1_0_0_1_n_n none l r (constant (F := Ideal) S5000x20 .f32 0x00000000#32) (ix2 p q)
      = ∑ k : Fin 64, l (ix2 p k) * r (ix2 k q) := by
  refine (Ideal.matmul_constant_zero_apply dot_S5000x64_S64x20_S5000x20_1_0_0_1_n_n none l r (ix2 p q)).trans ?_
  rw [← Equiv.sum_comp (contrEquiv1 dot_S5000x64_S64x20_S5000x20_1_0_0_1_n_n 64 rfl rfl).symm]
  refine Finset.sum_congr rfl fun k _ => ?_
  have hk := contrEquiv1_symm_val dot_S5000x64_S64x20_S5000x20_1_0_0_1_n_n 64 rfl rfl k
  have el : dot_S5000x64_S64x20_S5000x20_1_0_0_1_n_n.lhsIdx (ix2 p q) ((contrEquiv1 dot_S5000x64_S64x20_S5000x20_1_0_0_1_n_n 64 rfl rfl).symm k) = ix2 p k :=
    funext fun a => Fin.ext (by
      match a with
      | ⟨0, _⟩ => exact lhs1_0 _ _
      | ⟨1, _⟩ => exact (lhs1_1 _ _).trans hk)
  have er : dot_S5000x64_S64x20_S5000x20_1_0_0_1_n_n.rhsIdx (ix2 p q) ((contrEquiv1 dot_S5000x64_S64x20_S5000x20_1_0_0_1_n_n 64 rfl rfl).symm k) = ix2 k q :=
    funext fun a => Fin.ext (by
      match a with
      | ⟨0, _⟩ => exact (rhs1_0 _ _).trans hk
      | ⟨1, _⟩ => exact rhs1_1 _ _)
  rw [el, er]

/-! ## The stored vectors -/

/-- The first body's stored vector is the rectified dense layer of the three loaded blocks. -/
theorem pay0_eq (x0 : Vec Ideal S5000x64 .f32) (x1 : Vec Ideal S64x64 .f32) (x2 : Vec Ideal S1x64 .f32) :
    k0_pay1 (F := Ideal) x0 x1 x2 = denseRelu x0 x1 x2 := by
  funext j
  obtain ⟨p, q, rfl⟩ : ∃ (p : Fin 5000) (q : Fin 64), j = ix2 p q := ⟨j 0, j 1, eq_ix2 j⟩
  unfold k0_pay1
  rw [shapeCast_self, shapeCast_self]
  show max (matmul dot_S5000x64_S64x64_S5000x64_1_0_0_1_n_n none (truncf (F := Ideal) .bf16 x0 bitsLt_bf16_f32) (truncf (F := Ideal) .bf16 x1 bitsLt_bf16_f32) (constant (F := Ideal) S5000x64 .f32 0x00000000#32) (ix2 p q)
      + broadcastTo S5000x64 x2 broadcasts_S1x64_S5000x64 (ix2 p q)) (Ideal.ofBits .f32 0x00000000#32) = _
  rw [matmul0_apply, broadcastTo_1b_ab_apply]
  rfl

/-- The second body's stored vector is the dense layer of the three loaded blocks. -/
theorem pay1_eq (x0 : Vec Ideal S5000x64 .f32) (x1 : Vec Ideal S64x20 .f32) (x2 : Vec Ideal S1x20 .f32) :
    k1_pay1 (F := Ideal) x0 x1 x2 = dense x0 x1 x2 := by
  funext j
  obtain ⟨p, q, rfl⟩ : ∃ (p : Fin 5000) (q : Fin 20), j = ix2 p q := ⟨j 0, j 1, eq_ix2 j⟩
  unfold k1_pay1
  rw [shapeCast_self, shapeCast_self]
  show matmul dot_S5000x64_S64x20_S5000x20_1_0_0_1_n_n none (truncf (F := Ideal) .bf16 x0 bitsLt_bf16_f32) (truncf (F := Ideal) .bf16 x1 bitsLt_bf16_f32) (constant (F := Ideal) S5000x20 .f32 0x00000000#32) (ix2 p q)
      + broadcastTo S5000x20 x2 broadcasts_S1x20_S5000x20 (ix2 p q) = _
  rw [matmul1_apply, broadcastTo_1b_ab_apply]
  rfl

end Cert.Gcn

end
-- ==== Proof.Blocks.lean ====
/-
  From blocks to arrays, for each of the two regions and at ANY contents `V` the region is entered with: grid point
  `t` loads rows `5000·t … 5000·t + 4999` of the node array, the whole weight matrix and the whole bias row, and
  writes back the same rows of the output. Since row `r` of a dense layer's result reads only row `r` of the node
  array, what point `t` writes back is block `t` of the layer applied to the whole arrays; the twenty blocks cover
  the output, so after the region the output array IS that layer of the entry arrays.
-/
import proofs.«104964_j3504693313862_1_alg».proof.Proof.Gen.KernelIdeal.Frame
import proofs.«104964_j3504693313862_1_alg».proof.Proof.Payload
import Idealize.ShloMosaic.Lib.Pipeline.Value

set_option maxRecDepth 16384

noncomputable section

namespace Cert.Gcn

open Cert.KernelIdeal Cert.KernelIdeal.Gen Idealize.ShloMosaic Idealize.ShloMosaic.TcCoe Idealize.SL.Sem
open Idealize.ShloMosaic.ValueIdx
open Idealize.ShloMosaic.Pipeline (Dat)

/-- Two index functions that agree, entry by entry, on the entries one result entry reads give that entry the same
    value: row `j 0` of the nodes against row `i 0`, column `j 1` of the weights and the bias against column `i 1`. -/
theorem dense_congr {n n' k c c' : Nat} (x0 : (⟨2, ![n, k]⟩ : Shape).Idx → EReal) (x1 : (⟨2, ![k, c]⟩ : Shape).Idx → EReal)
    (x2 : (⟨2, ![1, c]⟩ : Shape).Idx → EReal) (A : (⟨2, ![n', k]⟩ : Shape).Idx → EReal) (Wt : (⟨2, ![k, c']⟩ : Shape).Idx → EReal)
    (B : (⟨2, ![1, c']⟩ : Shape).Idx → EReal) (j : (⟨2, ![n, c]⟩ : Shape).Idx) (i : (⟨2, ![n', c']⟩ : Shape).Idx)
    (h0 : ∀ q : Fin k, x0 (ix2 (j 0) q) = A (ix2 (i 0) q)) (h1 : ∀ q : Fin k, x1 (ix2 q (j 1)) = Wt (ix2 q (i 1)))
    (h2 : x2 (ix2 (0 : Fin 1) (j 1)) = B (ix2 (0 : Fin 1) (i 1))) : dense x0 x1 x2 j = dense A Wt B i := by
  unfold dense
  rw [h2]
  exact congrArg (· + B (ix2 (0 : Fin 1) (i 1))) (Finset.sum_congr rfl fun q _ => by rw [h0 q, h1 q])

theorem denseRelu_congr {n n' k c c' : Nat} (x0 : (⟨2, ![n, k]⟩ : Shape).Idx → EReal) (x1 : (⟨2, ![k, c]⟩ : Shape).Idx → EReal)
    (x2 : (⟨2, ![1, c]⟩ : Shape).Idx → EReal) (A : (⟨2, ![n', k]⟩ : Shape).Idx → EReal) (Wt : (⟨2, ![k, c']⟩ : Shape).Idx → EReal)
    (B : (⟨2, ![1, c']⟩ : Shape).Idx → EReal) (j : (⟨2, ![n, c]⟩ : Shape).Idx) (i : (⟨2, ![n', c']⟩ : Shape).Idx)
    (h0 : ∀ q : Fin k, x0 (ix2 (j 0) q) = A (ix2 (i 0) q)) (h1 : ∀ q : Fin k, x1 (ix2 q (j 1)) = Wt (ix2 q (i 1)))
    (h2 : x2 (ix2 (0 : Fin 1) (j 1)) = B (ix2 (0 : Fin 1) (i 1))) : denseRelu x0 x1 x2 j = denseRelu A Wt B i := by
  unfold denseRelu
  rw [dense_congr x0 x1 x2 A Wt B j i h0 h1 h2]

theorem hz : (![0, 0] : Fin 2 → Nat) = fun _ => 0 := funext fun a => by fin_cases a <;> rfl

variable (V : (c : Dev nD) → (b : Ref sig .tc) → Buf (Elt Ideal) ((c : Thread nD τ).loc b))

/-! ## Region 0: output rows `5000·t … 5000·t + 4999` are point `t`'s -/

/-- The printed index maps, decided over the 20 grid points: the node window and the output window sit at row block
    `t`, column block 0; the weights and the bias row are one block each. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every row block is some point's. -/
theorem idx_onto0 : ∀ q : Fin 20, ∃ t : Fin cfg0.N, win0_3.index t = ![q.val, 0] :=
  (by decide +kernel : ∀ q : Fin 20, ∃ t : Fin grid0.N, win0_3.index t = ![q.val, 0])

/-- What point `t` writes back is block `t` of the layer applied to the WHOLE arrays the region finds: a row of the
    layer's result reads only the same row of the node array, and the weights and the bias row are read whole. -/
theorem flushed0_eq (c : Dev nD) (t : Fin cfg0.N) :
    (dat0 V c).flushed 3 t
      = ((cfg0.win 3).blk t).view.read (Elt Ideal) (denseRelu (V c main_v9) (V c main_arg3) (V c main_v10)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  rw [pay0_eq]
  obtain ⟨e0, e1, e2, e3, e4, e5, e6, e7⟩ := idx_facts0 t
  funext j
  refine denseRelu_congr (iblk0 V c 0 t) (iblk0 V c 1 t) (iblk0 V c 2 t) (V c main_v9) (V c main_arg3) (V c main_v10) j
    (((cfg0.win 3).blk t).view.emb j) (fun k => ?_) (fun k => ?_) ?_
  · show V c main_v9 (((cfg0.win 0).blk t).view.emb (ix2 (j 0) k)) = V c main_v9 (ix2 ((((cfg0.win 3).blk t).view.emb j) 0) k)
    refine congrArg (V c main_v9) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  · show V c main_arg3 (((cfg0.win 1).blk t).view.emb (ix2 k (j 1))) = V c main_arg3 (ix2 k ((((cfg0.win 3).blk t).view.emb j) 1))
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_v10 (((cfg0.win 2).blk t).view.emb (ix2 (0 : Fin 1) (j 1))) = V c main_v10 (ix2 (0 : Fin 1) ((((cfg0.win 3).blk t).view.emb j) 1))
    refine congrArg (V c main_v10) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v11).slice (win0_3.rect t)).set ↔ _
  rw [View.set_slice_whole, Rect.mem_set_unit]
  exact Iff.rfl

/-- Every entry of the output array is written back by the point of its row block, `row / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the layer of the arrays the region was entered with. -/
theorem arr0 (c : Dev nD) :
    (dat0 V c).arrAt 3 cfg0.N = denseRelu (V c main_v9) (V c main_arg3) (V c main_v10) :=
  (dat0 V c).arrAt_eq_of_cover 3 (denseRelu (V c main_v9) (V c main_arg3) (V c main_v10)) (fun t _ => flushed0_eq V c t) (cover0)

/-! ## Region 1: output rows `5000·t … 5000·t + 4999` are point `t`'s -/

/-- The printed index maps, decided over the 20 grid points: the node window and the output window sit at row block
    `t`, column block 0; the weights and the bias row are one block each. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

/-- Every row block is some point's. -/
theorem idx_onto1 : ∀ q : Fin 20, ∃ t : Fin cfg1.N, win1_3.index t = ![q.val, 0] :=
  (by decide +kernel : ∀ q : Fin 20, ∃ t : Fin grid1.N, win1_3.index t = ![q.val, 0])

/-- What point `t` writes back is block `t` of the layer applied to the WHOLE arrays the region finds: a row of the
    layer's result reads only the same row of the node array, and the weights and the bias row are read whole. -/
theorem flushed1_eq (c : Dev nD) (t : Fin cfg1.N) :
    (dat1 V c).flushed 3 t
      = ((cfg1.win 3).blk t).view.read (Elt Ideal) (dense (V c main_v21) (V c main_arg5) (V c main_v22)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x20) hz, View.ld_unit_zero (S := S1x20) hz]
  rw [pay1_eq]
  obtain ⟨e0, e1, e2, e3, e4, e5, e6, e7⟩ := idx_facts1 t
  funext j
  refine dense_congr (iblk1 V c 0 t) (iblk1 V c 1 t) (iblk1 V c 2 t) (V c main_v21) (V c main_arg5) (V c main_v22) j
    (((cfg1.win 3).blk t).view.emb j) (fun k => ?_) (fun k => ?_) ?_
  · show V c main_v21 (((cfg1.win 0).blk t).view.emb (ix2 (j 0) k)) = V c main_v21 (ix2 ((((cfg1.win 3).blk t).view.emb j) 0) k)
    refine congrArg (V c main_v21) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · show V c main_arg5 (((cfg1.win 1).blk t).view.emb (ix2 k (j 1))) = V c main_arg5 (ix2 k ((((cfg1.win 3).blk t).view.emb j) 1))
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 20 + 1 * (j 1).val = win1_3.index t (1 : Fin 2) * 20 + 1 * (j 1).val; omega
  · show V c main_v22 (((cfg1.win 2).blk t).view.emb (ix2 (0 : Fin 1) (j 1))) = V c main_v22 (ix2 (0 : Fin 1) ((((cfg1.win 3).blk t).view.emb j) 1))
    refine congrArg (V c main_v22) (funext fun a => Fin.ext ?_)
    match a with
    | ⟨0, _⟩ => show win1_2.index t (0 : Fin 2) * 1 + 1 * 0 = 0; omega
    | ⟨1, _⟩ => show win1_2.index t (1 : Fin 2) * 20 + 1 * (j 1).val = win1_3.index t (1 : Fin 2) * 20 + 1 * (j 1).val; omega

/-- An index of the output array is in point `t`'s block iff each coordinate is in the block's range on its axis. -/
theorem mem_blk1 (t : Fin cfg1.N) (i : S100000x20.Idx) :
    i ∈ ((cfg1.win 3).blk t).view.set ↔ ∀ a : Fin 2, win1_3.index t a * S5000x20.size a ≤ (i a).val ∧ (i a).val < win1_3.index t a * S5000x20.size a + S5000x20.size a := by
  show i ∈ ((View.whole main_v23).slice (win1_3.rect t)).set ↔ _
  rw [View.set_slice_whole, Rect.mem_set_unit]
  exact Iff.rfl

/-- Every entry of the output array is written back by the point of its row block, `row / 5000`. -/
theorem cover1 (i : S100000x20.Idx) : ∃ t : Fin cfg1.N, (cfg1.win 3).flush t = true ∧ i ∈ ((cfg1.win 3).blk t).view.set := by
  have hi0 : (i 0).val < 100000 := (i 0).isLt
  have hi1 : (i 1).val < 20 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 20 ≤ (i 1).val ∧ (i 1).val < win1_3.index t (1 : Fin 2) * 20 + 20; omega

/-- The output array after the region: the layer of the arrays the region was entered with. -/
theorem arr1 (c : Dev nD) :
    (dat1 V c).arrAt 3 cfg1.N = dense (V c main_v21) (V c main_arg5) (V c main_v22) :=
  (dat1 V c).arrAt_eq_of_cover 3 (dense (V c main_v21) (V c main_arg5) (V c main_v22)) (fun t _ => flushed1_eq V c t) (cover1)

end Cert.Gcn

end
-- ==== Proof.Agg.lean ====
/-
  The sum aggregation over edges that both programs apply, twice, as the SAME host operations: edge `e` carries row
  `src e` of the node array (a negative index wrapped by the node count) to row `dst e`, where
  the carried rows are added up from zero. It is kept as one opaque function of the node array and the two index
  arrays and never opened: the two programs agree on it by being the same term. Also the bias vector laid out as a
  one-row matrix.
-/
import proofs.«104964_j3504693313862_1_alg».proof.Proof.Gen.KernelIdeal
import Idealize.ShloMosaic.Lib.ValueIdx
import Idealize.ShloMosaic.Lib.ValueLayout

noncomputable section

namespace Cert.Gcn

open Cert.KernelIdeal Cert.KernelIdeal.Gen Idealize.ShloMosaic Idealize.ShloMosaic.ValueIdx

/-- Gather the source rows edge by edge, scatter-add them to the destination rows of a zero array. -/
def agg (x : (⟨S100000x64, .f32⟩ : BufTy).Contents (Elt Ideal)) (src dst : (⟨S1000000, .i32⟩ : BufTy).Contents (Elt Ideal)) :
    (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- A vector of `c` entries as the one row of a `1 × c` matrix. -/
def row {c : Nat} (b : (⟨1, ![c]⟩ : Shape).Idx → EReal) : (⟨2, ![1, c]⟩ : Shape).Idx → EReal := fun i => b (ix1 (i 1))

/-- Reshaping a vector to one row is that row. -/
theorem shapeCast_row {c : Nat} (b : (⟨1, ![c]⟩ : Shape).Idx → EReal) (h : (⟨1, ![c]⟩ : Shape).ShapeCasts ⟨2, ![1, c]⟩) :
    shapeCast ⟨2, ![1, c]⟩ b h = row b := by
  funext i
  obtain ⟨u, q, rfl⟩ : ∃ (u : Fin 1) (q : Fin c), i = ix2 u q := ⟨i 0, i 1, eq_ix2 i⟩
  exact shapeCast_a_1a_apply b h u q

end Cert.Gcn

end
-- ==== Proof.KernelValue.lean ====
/-
  The idealized kernel program's result as one function of its arguments. Walking @main's four segments backwards
  from the last boundary: the result buffer is the second region's output array, which is the dense layer of the arrays
  that region is entered with; those are the second host stretch's aggregation of the first region's output, the second
  weight matrix untouched and the second bias reshaped to a row; the first region's output is the rectified dense layer
  of the first stretch's aggregation of the node features, the first weights and the first bias row.
-/
import proofs.«104964_j3504693313862_1_alg».proof.Proof.KernelRun
import proofs.«104964_j3504693313862_1_alg».proof.Proof.Blocks
import proofs.«104964_j3504693313862_1_alg».proof.Proof.Agg
import Idealize.ShloMosaic.Lib.StableHlo.Run

set_option maxRecDepth 16384

noncomputable section

namespace Cert.Gcn

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The two-layer network on extended reals: aggregate, rectified dense layer, aggregate, dense layer. -/
def gcn (x : S100000x64.Idx → EReal) (src dst : (⟨S1000000, .i32⟩ : BufTy).Contents (Elt Ideal)) (w1 : S64x64.Idx → EReal) (b1 : S64.Idx → EReal)
    (w2 : S64x20.Idx → EReal) (b2 : S20.Idx → EReal) : S100000x20.Idx → EReal :=
  dense (agg (denseRelu (agg x src dst) w1 (row b1)) src dst) w2 (row b2)

/-! ## The first stretch of host operations: what the first region is entered with -/

theorem entry0_nodes (c : Dev nD) :
    V1 m ρ c main_v9 = agg (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem entry0_weights (c : Dev nD) : V1 m ρ c main_arg3 = m ((c : Thread nD τ).loc main_arg3) := by
  show StableHlo.after hostOps0 (W0 m ρ c) (Proc.devRef .tc main_arg3) = _
  after_results

theorem entry0_bias (c : Dev nD) : V1 m ρ c main_v10 = row (m ((c : Thread nD τ).loc main_arg4)) := by
  refine Eq.trans ?_ (shapeCast_row (m ((c : Thread nD τ).loc main_arg4)) shapeCasts_S64_S1x64)
  show StableHlo.after hostOps0 (W0 m ρ c) (Proc.devRef .tc main_v10) = _
  after_results
  rfl

/-! ## The first region's exit: its output array, and the arguments it does not write -/

theorem exit0_out (c : Dev nD) :
    W2 m ρ c (Proc.devRef .tc main_v11)
      = denseRelu (agg (m ((c : Thread nD τ).loc main_arg0)) (m ((c : Thread nD τ).loc main_arg1)) (m ((c : Thread nD τ).loc main_arg2)))
          (m ((c : Thread nD τ).loc main_arg3)) (row (m ((c : Thread nD τ).loc main_arg4))) := by
  rw [← entry0_nodes m ρ c, ← entry0_weights m ρ c, ← entry0_bias m ρ c]
  exact (W2_arr m ρ c 3).trans (arr0 (V1 m ρ) c)

theorem exit0_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem exit0_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem exit0_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

theorem exit0_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

/-! ## The second stretch of host operations: what the second region is entered with -/

theorem entry1_nodes (c : Dev nD) :
    V3 m ρ c main_v21 = agg (W2 m ρ c (Proc.devRef .tc main_v11)) (W2 m ρ c (Proc.devRef .tc main_arg1)) (W2 m ρ c (Proc.devRef .tc main_arg2)) := by
  show StableHlo.after hostOps1 (W2 m ρ c) (Proc.devRef .tc main_v21) = _
  after_results
  rfl

theorem entry1_weights (c : Dev nD) : V3 m ρ c main_arg5 = W2 m ρ c (Proc.devRef .tc main_arg5) := by
  show StableHlo.after hostOps1 (W2 m ρ c) (Proc.devRef .tc main_arg5) = _
  after_results

theorem entry1_bias (c : Dev nD) : V3 m ρ c main_v22 = row (W2 m ρ c (Proc.devRef .tc main_arg6)) := by
  refine Eq.trans ?_ (shapeCast_row (W2 m ρ c (Proc.devRef .tc main_arg6)) shapeCasts_S20_S1x20)
  show StableHlo.after hostOps1 (W2 m ρ c) (Proc.devRef .tc main_v22) = _
  after_results
  rfl

/-! ## The result -/

/-- The result buffer at the last boundary is the network of the launch arguments. -/
theorem result_eq (c : Dev nD) :
    W4 m ρ c (Proc.devRef .tc main_v23)
      = gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine ((W4_arr m ρ c 3).trans (arr1 (V3 m ρ) c)).trans ?_
  rw [entry1_nodes m ρ c, entry1_weights m ρ c, entry1_bias m ρ c, exit0_out m ρ c, exit0_arg1 m ρ c, exit0_arg2 m ρ c, exit0_arg5 m ρ c,
    exit0_arg6 m ρ c]
  rfl

/-- The idealized kernel program's run: the result buffer ends at the network of the launch arguments, the arguments
    as launched. -/
theorem kernel_run : θ_run defs (onTc (τ := τ) (main (F := Ideal))) ⟨m, fun _ => 0, ρ⟩ (fun r => ∀ c : Dev nD,
      r.2.mem ((c.tc : Thread nD τ).loc main_v23)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (KernelRun.run m ρ)

end Cert.Gcn

end
-- ==== Proof.RefValue.lean ====
/-
  The reference's result as the same function of the arguments. Its run's term is read one operation at a time: the
  hidden layer is the rectified dense layer of the first aggregation (a `dot_general` with one contracted axis is the
  sum over that axis, the bias vector broadcast twice reads the vector at the column, and `relu` is the maximum with
  zero), the two aggregations are the kernel program's own host operations, and the output layer is the dense layer
  of the second aggregation.
-/
import proofs.«104964_j3504693313862_1_alg».proof.Proof.Gen.ReferenceIdeal.Read
import proofs.«104964_j3504693313862_1_alg».proof.Proof.Dense
import proofs.«104964_j3504693313862_1_alg».proof.Proof.Agg

noncomputable section

namespace Cert.Gcn.Ref

open Cert.ReferenceIdeal Cert.ReferenceIdeal.Gen Cert.ReferenceIdeal.Read Idealize.ShloMosaic Idealize.ShloMosaic.ValueIdx
open Cert.Gcn

variable (x0 : (⟨S100000x64, .f32⟩ : BufTy).Contents (Elt Ideal)) (x1 x2 : (⟨S1000000, .i32⟩ : BufTy).Contents (Elt Ideal))
  (x3 : (⟨S64x64, .f32⟩ : BufTy).Contents (Elt Ideal)) (x4 : (⟨S64, .f32⟩ : BufTy).Contents (Elt Ideal))
  (x5 : (⟨S64x20, .f32⟩ : BufTy).Contents (Elt Ideal)) (x6 : (⟨S20, .f32⟩ : BufTy).Contents (Elt Ideal))

/-- The reference's first aggregation is the shared one. -/
theorem agg1_eq : val_main_v9 (F := Ideal) x0 x1 x2 = agg x0 x1 x2 := rfl

/-- The hidden layer: `relu (agg · W1 + b1)`, entry by entry. -/
theorem hidden_eq : val_main_v14 (F := Ideal) x0 x1 x2 x3 x4 = denseRelu (val_main_v9 (F := Ideal) x0 x1 x2) x3 (row x4) := by
  funext i
  obtain ⟨r, j, rfl⟩ : ∃ (r : Fin 100000) (j : Fin 64), i = ix2 r j := ⟨i 0, i 1, eq_ix2 i⟩
  rw [val_main_v14_apply, val_main_v13_apply, val_main_v10_apply, val_main_v12_apply, val_main_v11_apply, val_main_call0_v0_apply,
    val_main_call0_cst_apply]
  have e1 : ∀ k : Fin 64, lidx_main_v10 (ix2 r j) k = ix2 r k := fun k => funext fun a => Fin.ext (by
    match a with
    | ⟨0, _⟩ => rfl
    | ⟨1, _⟩ => rfl)
  have e2 : ∀ k : Fin 64, ridx_main_v10 (ix2 r j) k = ix2 k j := fun k => funext fun a => Fin.ext (by
    match a with
    | ⟨0, _⟩ => rfl
    | ⟨1, _⟩ => rfl)
  have e3 : idx_main_v11 (idx_main_v12 (ix2 r j)) = ix1 j := funext fun a => Fin.ext (by
    match a with
    | ⟨0, _⟩ => rfl)
  simp only [e1, e2, e3]
  rfl

/-- The reference's second aggregation is the shared one, of the hidden layer. -/
theorem agg2_eq : val_main_v24 (F := Ideal) x0 x1 x2 x3 x4 = agg (val_main_v14 (F := Ideal) x0 x1 x2 x3 x4) x1 x2 := rfl

/-- The output layer: `agg · W2 + b2`, entry by entry. -/
theorem out_eq : val_main_v28 (F := Ideal) x0 x1 x2 x3 x4 x5 x6 = dense (val_main_v24 (F := Ideal) x0 x1 x2 x3 x4) x5 (row x6) := by
  funext i
  obtain ⟨r, j, rfl⟩ : ∃ (r : Fin 100000) (j : Fin 20), i = ix2 r j := ⟨i 0, i 1, eq_ix2 i⟩
  rw [val_main_v28_apply, val_main_v25_apply, val_main_v27_apply, val_main_v26_apply]
  have e1 : ∀ k : Fin 64, lidx_main_v25 (ix2 r j) k = ix2 r k := fun k => funext fun a => Fin.ext (by
    match a with
    | ⟨0, _⟩ => rfl
    | ⟨1, _⟩ => rfl)
  have e2 : ∀ k : Fin 64, ridx_main_v25 (ix2 r j) k = ix2 k j := fun k => funext fun a => Fin.ext (by
    match a with
    | ⟨0, _⟩ => rfl
    | ⟨1, _⟩ => rfl)
  have e3 : idx_main_v26 (idx_main_v27 (ix2 r j)) = ix1 j := funext fun a => Fin.ext (by
    match a with
    | ⟨0, _⟩ => rfl)
  simp only [e1, e2, e3]
  rfl

/-- The reference's result stage is the two-layer network of its arguments. -/
theorem result_eq : val_main_v28 (F := Ideal) x0 x1 x2 x3 x4 x5 x6
    = dense (agg (denseRelu (agg x0 x1 x2) x3 (row x4)) x1 x2) x5 (row x6) := by
  rw [out_eq, agg2_eq, hidden_eq, agg1_eq]

end Cert.Gcn.Ref

end
-- ==== Proof.lean ====
/-
  A two-layer graph convolution: `out = agg (relu (agg x · W1 + b1)) · W2 + b2`, where `agg` sums, for every node, the
  feature rows of the sources of its incoming edges. The kernel program runs each dense layer as a pipelined region over
  twenty blocks of 5000 rows (inputs rounded to bf16 on the way into the matrix product, which is the identity on
  extended reals) and both aggregations on the host; the reference runs everything on the host. At the ideal values
  both results are the same function of the arguments, entry by entry: a block of rows of a dense layer depends only on
  the same rows of its input, so the blocks assemble to the whole layer, and the aggregations are the same host
  operations in both programs. No law beyond reading both sides at an index is needed, so the finiteness of the inputs
  is never used. The ideal pass rewrote nothing, so there is nothing to preserve.
-/
import proofs.«104964_j3504693313862_1_alg».proof.Defs
import proofs.«104964_j3504693313862_1_alg».proof.Proof.Gen.Kernel
import proofs.«104964_j3504693313862_1_alg».proof.Proof.Gen.Kernel.Frame
import proofs.«104964_j3504693313862_1_alg».proof.Proof.Gen.KernelIdeal
import proofs.«104964_j3504693313862_1_alg».proof.Proof.Gen.KernelIdeal.Frame
import proofs.«104964_j3504693313862_1_alg».proof.Proof.Gen.ReferenceIdeal
import proofs.«104964_j3504693313862_1_alg».proof.Proof.Gen.Pre_finite_inputs
import proofs.«104964_j3504693313862_1_alg».proof.Proof.Gen.ReferenceIdeal.Run
import proofs.«104964_j3504693313862_1_alg».proof.Proof.Gen.ReferenceIdeal.Read
import proofs.«104964_j3504693313862_1_alg».proof.Proof.KernelValue
import proofs.«104964_j3504693313862_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel program is the kernel program's own text read at the ideal values. -/
theorem preserves : Cert.preserves_Kernel_KernelIdeal := trivial

/-- From memories that agree on the arguments both programs end with the result at the two-layer network of the
    arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Gcn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Gcn.Ref.result_eq, (hagree c).1, (hagree c).2.1, (hagree c).2.2.1,
    (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
